-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S131072x16 : Shape := ⟨2, ![131072, 16]⟩
abbrev S256x16 : Shape := ⟨2, ![256, 16]⟩
abbrev S256 : Shape := ⟨1, ![256]⟩
abbrev S256x256 : Shape := ⟨2, ![256, 256]⟩
abbrev S16x256 : Shape := ⟨2, ![16, 256]⟩
abbrev S16 : Shape := ⟨1, ![16]⟩

class Facts : Prop where
  reducesTo_S_S_d : S_.ReducesTo [] S_
  h_S_ : 0 < S_.numel
  bcast_S_S131072x16 : S_.BroadcastsInDim S131072x16 (![] : Fin 0 → Fin S131072x16.rank)
  reducesTo_S131072x16_S_d0_1 : S131072x16.ReducesTo [0, 1] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg11 : FVec F S16 .f32) (main_v47 : IVec S_ 1) (main_v50 : IVec S16x256 1) : IVec S_ 1 :=
  let main_c_19 : IVec S_ 1 := constantI S_ 1 1#1
  let main_v51 : IVec S_ 1 := (fun x v => Host.reduce IntOp.andi x v reducesTo_S16x256_S_d0_1 h_S_) main_v50 main_c_19
  let main_v52 : IVec S_ 1 := andi main_v47 main_v51
  let main_v53 : FVec F S16 .f32 := Host.absf main_arg11
  let main_cst_20 : FVec F S_ .f32 := constant S_ .f32 0x7F800000#32
  let main_v54 : FVec F S16 .f32 := broadcastInDim S16 ![] bcast_S_S16 main_cst_20
  let main_v55 : IVec S16 1 := cmpf .olt main_v53 main_v54
  let main_c_21 : IVec S_ 1 := constantI S_ 1 1#1
  let main_v56 : IVec S_ 1 := (fun x v => Host.reduce IntOp.andi x v reducesTo_S16_S_d0 h_S_) main_v55 main_c_21
  let main_v57 : IVec S_ 1 := andi main_v52 main_v56
  main_v57

def fn_part2 {F : FTy → Type} [FloatOps F] (main_arg8 : FVec F S256x256 .f32) (main_arg9 : FVec F S256 .f32) (main_arg10 : FVec F S16x256 .f32) (main_arg11 : FVec F S16 .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S256x256 .f32 := Host.absf main_arg8
  let main_cst_14 : FVec F S_ .f32 := constant S_ .f32 0x7F800000#32
  let main_v39 : FVec F S256x256 .f32 := broadcastInDim S256x256 ![] bcast_S_S256x256 main_cst_14
  let main_v40 : IVec S256x256 1 := cmpf .olt main_v38 main_v39
  let main_c_15 : IVec S_ 1 := constantI S_ 1 1#1
  let main_v41 : IVec S_ 1 := (fun x v => Host.reduce IntOp.andi x v reducesTo_S256x256_S_d0_1 h_S_) main_v40 main_c_15
  let main_v42 : IVec S_ 1 := andi main_v37 main_v41
  let main_v43 : FVec F S256 .f32 := Host.absf main_arg9
  let main_cst_16 : FVec F S_ .f32 := constant S_ .f32 0x7F800000#32
  let main_v44 : FVec F S256 .f32 := broadcastInDim S256 ![] bcast_S_S256 main_cst_16
  let main_v45 : IVec S256 1 := cmpf .olt main_v43 main_v44
  let main_c_17 : IVec S_ 1 := constantI S_ 1 1#1
  let main_v46 : IVec S_ 1 := (fun x v => Host.reduce IntOp.andi x v reducesTo_S256_S_d0 h_S_) main_v45 main_c_17
  let main_v47 : IVec S_ 1 := andi main_v42 main_v46
  let main_v48 : FVec F S16x256 .f32 := Host.absf main_arg10
  let main_cst_18 : FVec F S_ .f32 := constant S_ .f32 0x7F800000#32
  let main_v49 : FVec F S16x256 .f32 := broadcastInDim S16x256 ![] bcast_S_S16x256 main_cst_18
  let main_v50 : IVec S16x256 1 := cmpf .olt main_v48 main_v49
  fn_part3 (F := F) main_arg11 main_v47 main_v50

def fn_part1 {F : FTy → Type} [FloatOps F] (main_arg4 : FVec F S256x256 .f32) (main_arg5 : FVec F S256 .f32) (main_arg6 : FVec F S256x16 .f32) (main_arg7 : FVec F S256 .f32) (main_arg8 : FVec F S256x256 .f32) (main_arg9 : FVec F S256 .f32) (main_arg10 : FVec F S16x256 .f32) (main_arg11 : FVec F S16 .f32) (main_v12 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v12 main_v16
  let main_v18 : FVec F S256x256 .f32 := Host.absf main_arg4
  let main_cst_6 : FVec F S_ .f32 := constant S_ .f32 0x7F800000#32
  let main_v19 : FVec F S256x256 .f32 := broadcastInDim S256x256 ![] bcast_S_S256x256 main_cst_6
  let main_v20 : IVec S256x256 1 := cmpf .olt main_v18 main_v19
  let main_c_7 : IVec S_ 1 := constantI S_ 1 1#1
  let main_v21 : IVec S_ 1 := (fun x v => Host.reduce IntOp.andi x v reducesTo_S256x256_S_d0_1 h_S_) main_v20 main_c_7
  let main_v22 : IVec S_ 1 := andi main_v17 main_v21
  let main_v23 : FVec F S256 .f32 := Host.absf main_arg5
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256x16 .f32 := Host.absf main_arg6
  let main_cst_10 : FVec F S_ .f32 := constant S_ .f32 0x7F800000#32
  let main_v29 : FVec F S256x16 .f32 := broadcastInDim S256x16 ![] bcast_S_S256x16 main_cst_10
  let main_v30 : IVec S256x16 1 := cmpf .olt main_v28 main_v29
  let main_c_11 : IVec S_ 1 := constantI S_ 1 1#1
  let main_v31 : IVec S_ 1 := (fun x v => Host.reduce IntOp.andi x v reducesTo_S256x16_S_d0_1 h_S_) main_v30 main_c_11
  let main_v32 : IVec S_ 1 := andi main_v27 main_v31
  let main_v33 : FVec F S256 .f32 := Host.absf main_arg7
  fn_part2 (F := F) main_arg8 main_arg9 main_arg10 main_arg11 main_v32 main_v33

def fn {F : FTy → Type} [FloatOps F] (main_arg0 : FVec F S_ .f32) (main_arg1 : FVec F S131072x16 .f32) (main_arg2 : FVec F S256x16 .f32) (main_arg3 : FVec F S256 .f32) (main_arg4 : FVec F S256x256 .f32) (main_arg5 : FVec F S256 .f32) (main_arg6 : FVec F S256x16 .f32) (main_arg7 : FVec F S256 .f32) (main_arg8 : FVec F S256x256 .f32) (main_arg9 : FVec F S256 .f32) (main_arg10 : FVec F S16x256 .f32) (main_arg11 : FVec F S16 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S131072x16 .f32 := Host.absf main_arg1
  let main_cst_0 : FVec F S_ .f32 := constant S_ .f32 0x7F800000#32
  let main_v4 : FVec F S131072x16 .f32 := broadcastInDim S131072x16 ![] bcast_S_S131072x16 main_cst_0
  let main_v5 : IVec S131072x16 1 := cmpf .olt main_v3 main_v4
  let main_c_1 : IVec S_ 1 := constantI S_ 1 1#1
  let main_v6 : IVec S_ 1 := (fun x v => Host.reduce IntOp.andi x v reducesTo_S131072x16_S_d0_1 h_S_) main_v5 main_c_1
  let main_v7 : IVec S_ 1 := andi main_v2 main_v6
  let main_v8 : FVec F S256x16 .f32 := Host.absf main_arg2
  let main_cst_2 : FVec F S_ .f32 := constant S_ .f32 0x7F800000#32
  let main_v9 : FVec F S256x16 .f32 := broadcastInDim S256x16 ![] bcast_S_S256x16 main_cst_2
  let main_v10 : IVec S256x16 1 := cmpf .olt main_v8 main_v9
  let main_c_3 : IVec S_ 1 := constantI S_ 1 1#1
  let main_v11 : IVec S_ 1 := (fun x v => Host.reduce IntOp.andi x v reducesTo_S256x16_S_d0_1 h_S_) main_v10 main_c_3
  let main_v12 : IVec S_ 1 := andi main_v7 main_v11
  let main_v13 : FVec F S256 .f32 := Host.absf main_arg3
  let main_cst_4 : FVec F S_ .f32 := constant S_ .f32 0x7F800000#32
  let main_v14 : FVec F S256 .f32 := broadcastInDim S256 ![] bcast_S_S256 main_cst_4
  let main_v15 : IVec S256 1 := cmpf .olt main_v13 main_v14
  let main_c_5 : IVec S_ 1 := constantI S_ 1 1#1
  fn_part1 (F := F) main_arg4 main_arg5 main_arg6 main_arg7 main_arg8 main_arg9 main_arg10 main_arg11 main_v12 main_v15 main_c_5
-- ==== Kernel.lean ====
abbrev S_ : Shape := ⟨0, ![]⟩
abbrev S131072x16 : Shape := ⟨2, ![131072, 16]⟩
abbrev S256x16 : Shape := ⟨2, ![256, 16]⟩
abbrev S256 : Shape := ⟨1, ![256]⟩
abbrev S256x256 : Shape := ⟨2, ![256, 256]⟩
abbrev S16x256 : Shape := ⟨2, ![16, 256]⟩
abbrev S16 : Shape := ⟨1, ![16]⟩
abbrev S1x256 : Shape := ⟨2, ![1, 256]⟩
abbrev S1x16 : Shape := ⟨2, ![1, 16]⟩
abbrev S2048x16 : Shape := ⟨2, ![2048, 16]⟩
abbrev S2048x256 : Shape := ⟨2, ![2048, 256]⟩
abbrev S2048x8 : Shape := ⟨2, ![2048, 8]⟩

abbrev nBuf : Space → Nat
  | .hbm => 28
  | .vmem => 14
  | .smem => 0
  | _ => 0

abbrev bufTy : (tb : Table) → Fin (tcTables nBuf tb) → BufTy
  | .hbm, ⟨0, _⟩ => ⟨S_, .f32⟩
  | .hbm, ⟨1, _⟩ => ⟨S131072x16, .f32⟩
  | .hbm, ⟨2, _⟩ => ⟨S256x16, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x16, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S16x256, .f32⟩
  | .hbm, ⟨11, _⟩ => ⟨S16, .f32⟩
  | .hbm, ⟨12, _⟩ => ⟨S16x256, .f32⟩
  | .hbm, ⟨13, _⟩ => ⟨S16x256, .bf16⟩
  | .hbm, ⟨14, _⟩ => ⟨S256x256, .f32⟩
  | .hbm, ⟨15, _⟩ => ⟨S256x256, .bf16⟩
  | .hbm, ⟨16, _⟩ => ⟨S16x256, .f32⟩
  | .hbm, ⟨17, _⟩ => ⟨S16x256, .bf16⟩
  | .hbm, ⟨18, _⟩ => ⟨S256x256, .f32⟩
  | .hbm, ⟨19, _⟩ => ⟨S256x256, .bf16⟩
  | .hbm, ⟨20, _⟩ => ⟨S256x16, .f32⟩
  | .hbm, ⟨21, _⟩ => ⟨S256x16, .bf16⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x16, .f32⟩
  | .hbm, ⟨27, _⟩ => ⟨S131072x16, .f32⟩
  | .local _ .vmem, ⟨0, _⟩ => ⟨S2048x16, .f32⟩
  | .local _ .vmem, ⟨1, _⟩ => ⟨S2048x16, .f32⟩
  | .local _ .vmem, ⟨2, _⟩ => ⟨S16x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S16x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x16, .bf16⟩
  | .local _ .vmem, ⟨11, _⟩ => ⟨S1x16, .f32⟩
  | .local _ .vmem, ⟨12, _⟩ => ⟨S2048x16, .f32⟩
  | .local _ .vmem, ⟨13, _⟩ => ⟨S2048x16, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S256x16_S16x256_1_0 : S256x16.Transposes [1, 0] S16x256
  bitsLt_bf16_f32 : FTy.bits .bf16 < FTy.bits .f32
  transposes_S256x256_S256x256_1_0 : S256x256.Transposes [1, 0] S256x256
  transposes_S16x256_S256x16_1_0 : S16x256.Transposes [1, 0] S256x16
  shapeCasts_S256_S1x256 : S256.ShapeCasts S1x256
  shapeCasts_S16_S1x16 : S16.ShapeCasts S1x16
  inb_S2048x16_S2048x16_0_0 : ∀ a, (![0, 0] : Fin 2 → Nat) a + S2048x16.size a ≤ S2048x16.size a
  h_S2048x16 : 0 < S2048x16.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x256_S2048x256 : S1x256.Broadcasts S2048x256
  broadcasts_S1x16_S2048x16 : S1x16.Broadcasts S2048x16
  slices_S2048x16_o0_8_S2048x8 : S2048x16.Slices ![0, 8] S2048x8
  slices_S2048x16_o0_0_S2048x8 : S2048x16.Slices ![0, 0] S2048x8
  concatenates_S2048x8_S2048x8_S2048x16_d1 : Shape.Concatenates [S2048x8, S2048x8] S2048x16 1
  dot_S2048x16_S16x256_S2048x256_1_0_0_1_n_n_wf : DotDims.WF S2048x16 S16x256 S2048x256 [1] [0] [0] [1] [] []
  dot_S2048x256_S256x256_S2048x256_1_0_0_1_n_n_wf : DotDims.WF S2048x256 S256x256 S2048x256 [1] [0] [0] [1] [] []
  dot_S2048x256_S256x16_S2048x16_1_0_0_1_n_n_wf : DotDims.WF S2048x256 S256x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S131072x16.size a
  hwx0_0 : ∀ i : grid0.Coords, EltTy.bits .f32 = 32 ∨ (Rect.block (s := S131072x16) S2048x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .bf16 = 32 ∨ (Rect.block (s := S16x256) S16x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x256.size a
  hwx0_5 : ∀ i : grid0.Coords, EltTy.bits .bf16 = 32 ∨ (Rect.block (s := S16x256) S16x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x16.size a ≤ S256x16.size a
  hwx0_9 : ∀ i : grid0.Coords, EltTy.bits .bf16 = 32 ∨ (Rect.block (s := S256x16) S256x16.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x16.size a ≤ S131072x16.size a
  hwx0_11 : ∀ i : grid0.Coords, EltTy.bits .f32 = 32 ∨ (Rect.block (s := S131072x16) S2048x16.size (cc0_transform_11 i) (hinb0_11 i)).WholeWords (EltTy.packing .f32)

variable [Facts₀]

def dot_S2048x16_S16x256_S2048x256_1_0_0_1_n_n : DotDims S2048x16 S16x256 S2048x256 where
  lhsContracting := [1]
  rhsContracting := [0]
  lhsNonContracting := [0]
  rhsNonContracting := [1]
  lhsBatch := []
  rhsBatch := []
  wf := dot_S2048x16_S16x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf

abbrev win0_0 : Pipeline.Window sig grid0 :=
  Pipeline.Window.ofSpec (Memref.whole main_arg1) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S2048x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S_ : Shape := ⟨0, ![]⟩
abbrev S131072x16 : Shape := ⟨2, ![131072, 16]⟩
abbrev S256x16 : Shape := ⟨2, ![256, 16]⟩
abbrev S256 : Shape := ⟨1, ![256]⟩
abbrev S256x256 : Shape := ⟨2, ![256, 256]⟩
abbrev S16x256 : Shape := ⟨2, ![16, 256]⟩
abbrev S16 : Shape := ⟨1, ![16]⟩
abbrev S131072x256 : Shape := ⟨2, ![131072, 256]⟩
abbrev S1x256 : Shape := ⟨2, ![1, 256]⟩
abbrev S1x16 : Shape := ⟨2, ![1, 16]⟩
abbrev S131072x8 : Shape := ⟨2, ![131072, 8]⟩

abbrev nBuf : Space → Nat
  | .hbm => 69
  | .vmem => 0
  | .smem => 0
  | _ => 0

abbrev bufTy : (tb : Table) → Fin (tcTables nBuf tb) → BufTy
  | .hbm, ⟨0, _⟩ => ⟨S_, .f32⟩
  | .hbm, ⟨1, _⟩ => ⟨S131072x16, .f32⟩
  | .hbm, ⟨2, _⟩ => ⟨S256x16, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x16, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S16x256, .f32⟩
  | .hbm, ⟨11, _⟩ => ⟨S16, .f32⟩
  | .hbm, ⟨12, _⟩ => ⟨S16x256, .f32⟩
  | .hbm, ⟨13, _⟩ => ⟨S131072x256, .f32⟩
  | .hbm, ⟨14, _⟩ => ⟨S1x256, .f32⟩
  | .hbm, ⟨15, _⟩ => ⟨S131072x256, .f32⟩
  | .hbm, ⟨16, _⟩ => ⟨S131072x256, .f32⟩
  | .hbm, ⟨17, _⟩ => ⟨S131072x256, .f32⟩
  | .hbm, ⟨18, _⟩ => ⟨S131072x256, .f32⟩
  | .hbm, ⟨19, _⟩ => ⟨S_, .f32⟩
  | .hbm, ⟨20, _⟩ => ⟨S131072x256, .f32⟩
  | .hbm, ⟨21, _⟩ => ⟨S131072x256, .f32⟩
  | .hbm, ⟨22, _⟩ => ⟨S256x256, .f32⟩
  | .hbm, ⟨23, _⟩ => ⟨S131072x256, .f32⟩
  | .hbm, ⟨24, _⟩ => ⟨S1x256, .f32⟩
  | .hbm, ⟨25, _⟩ => ⟨S131072x256, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S_, .f32⟩
  | .hbm, ⟨30, _⟩ => ⟨S131072x256, .f32⟩
  | .hbm, ⟨31, _⟩ => ⟨S131072x256, .f32⟩
  | .hbm, ⟨32, _⟩ => ⟨S16x256, .f32⟩
  | .hbm, ⟨33, _⟩ => ⟨S131072x256, .f32⟩
  | .hbm, ⟨34, _⟩ => ⟨S1x256, .f32⟩
  | .hbm, ⟨35, _⟩ => ⟨S131072x256, .f32⟩
  | .hbm, ⟨36, _⟩ => ⟨S131072x256, .f32⟩
  | .hbm, ⟨37, _⟩ => ⟨S_, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S_, .f32⟩
  | .hbm, ⟨43, _⟩ => ⟨S131072x256, .f32⟩
  | .hbm, ⟨44, _⟩ => ⟨S131072x256, .f32⟩
  | .hbm, ⟨45, _⟩ => ⟨S131072x256, .f32⟩
  | .hbm, ⟨46, _⟩ => ⟨S256x256, .f32⟩
  | .hbm, ⟨47, _⟩ => ⟨S131072x256, .f32⟩
  | .hbm, ⟨48, _⟩ => ⟨S1x256, .f32⟩
  | .hbm, ⟨49, _⟩ => ⟨S131072x256, .f32⟩
  | .hbm, ⟨50, _⟩ => ⟨S131072x256, .f32⟩
  | .hbm, ⟨51, _⟩ => ⟨S_, .f32⟩
  | .hbm, ⟨52, _⟩ => ⟨S131072x256, .f32⟩
  | .hbm, ⟨53, _⟩ => ⟨S131072x256, .f32⟩
  | .hbm, ⟨54, _⟩ => ⟨S131072x256, .f32⟩
  | .hbm, ⟨55, _⟩ => ⟨S131072x256, .f32⟩
  | .hbm, ⟨56, _⟩ => ⟨S_, .f32⟩
  | .hbm, ⟨57, _⟩ => ⟨S131072x256, .f32⟩
  | .hbm, ⟨58, _⟩ => ⟨S131072x256, .f32⟩
  | .hbm, ⟨59, _⟩ => ⟨S131072x256, .f32⟩
  | .hbm, ⟨60, _⟩ => ⟨S256x16, .f32⟩
  | .hbm, ⟨61, _⟩ => ⟨S131072x16, .f32⟩
  | .hbm, ⟨62, _⟩ => ⟨S1x16, .f32⟩
  | .hbm, ⟨63, _⟩ => ⟨S131072x16, .f32⟩
  | .hbm, ⟨64, _⟩ => ⟨S131072x16, .f32⟩
  | .hbm, ⟨65, _⟩ => ⟨S131072x8, .f32⟩
  | .hbm, ⟨66, _⟩ => ⟨S131072x8, .f32⟩
  | .hbm, ⟨67, _⟩ => ⟨S131072x8, .f32⟩
  | .hbm, ⟨68, _⟩ => ⟨S131072x16, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  transposes_S256x16_S16x256_1_0 : S256x16.Transposes [1, 0] S16x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  transposes_S256x256_S256x256_1_0 : S256x256.Transposes [1, 0] S256x256
  transposes_S16x256_S256x16_1_0 : S16x256.Transposes [1, 0] S256x16
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  slices_S131072x16_S131072x8_0_8 : S131072x16.Slices ![0, 8] S131072x8
  slices_S131072x16_S131072x8_0_0 : S131072x16.Slices ![0, 0] S131072x8
  concatenates_S131072x8_S131072x8_S131072x16_d1 : Shape.Concatenates [S131072x8, S131072x8] S131072x16 1
  dot_S131072x16_S16x256_S131072x256_1_0_0_1_n_n_wf : DotDims.WF S131072x16 S16x256 S131072x256 [1] [0] [0] [1] [] []
  dot_S131072x256_S256x256_S131072x256_1_0_0_1_n_n_wf : DotDims.WF S131072x256 S256x256 S131072x256 [1] [0] [0] [1] [] []
  dot_S131072x256_S256x16_S131072x16_1_0_0_1_n_n_wf : DotDims.WF S131072x256 S256x16 S131072x16 [1] [0] [0] [1] [] []

variable [Facts₀]

def dot_S131072x16_S16x256_S131072x256_1_0_0_1_n_n : DotDims S131072x16 S16x256 S131072x256 where
  lhsContracting := [1]
  rhsContracting := [0]
  lhsNonContracting := [0]
  rhsNonContracting := [1]
  lhsBatch := []
  rhsBatch := []
  wf := dot_S131072x16_S16x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x16_S131072x16_1_0_0_1_n_n : DotDims S131072x256 S256x16 S131072x16 where
  lhsContracting := [1]
  rhsContracting := [0]
  lhsNonContracting := [0]
  rhsNonContracting := [1]
  lhsBatch := []
  rhsBatch := []
  wf := dot_S131072x256_S256x16_S131072x16_1_0_0_1_n_n_wf

class Facts : Prop extends Facts₀ where

variable [Facts]
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.LibDense.lean ====
/-
  The pieces of a dense layer read at one entry, over the extended reals.

  A matrix product reads, at row r and column c, the sum over k of A(r, k) · B(k, c): row r of A against
  column c of B.  The product accumulated into the zero matrix and the plain product are both this sum when
  their dimension numbers are the plain ones (left operand contracted on its second axis, right operand on its
  first, no batch axis), whatever float formats the operands carry.  A one-column matrix spread across the
  columns reads, at (r, c), its entry of row r; a single number spread over a whole array reads that number.
-/
import Idealize.ShloMosaic.PureOps.Ideal.Laws
import Idealize.ShloMosaic.Lib.ValueIdx
import Idealize.ShloMosaic.Lib.Pipeline.Value
import proofs.«119974_j9156870275617_1_alg».proof.Proof.LibMatmul

noncomputable section

namespace Cert.Hand.Dense

open Idealize.ShloMosaic Idealize.ShloMosaic.ValueIdx

/-- Column `c` of a matrix, as a function of the row. -/
def col {a b : ℕ} (A : (⟨2, ![a, b]⟩ : Shape).Idx → EReal) (c : Fin b) : Fin a → EReal := fun k => A (ix2 k c)

/-- Row `r` of a matrix against a vector: the sum over k of A(r, k) · v(k). -/
def lin {a k : ℕ} (A : (⟨2, ![a, k]⟩ : Shape).Idx → EReal) (v : Fin k → EReal) (r : Fin a) : EReal :=
  ∑ j : Fin k, A (ix2 r j) * v j

theorem col_apply {a b : ℕ} (A : (⟨2, ![a, b]⟩ : Shape).Idx → EReal) (c : Fin b) (k : Fin a) :
    col A c k = A (ix2 k c) := rfl

/-- A product accumulated into the zero matrix, at (r, c): row r of the left operand against column c of the right. -/
theorem matmul_entry {M K N : ℕ} {φ₁ φ₂ : FTy} (prec : Option ContractPrecision)
    (A : FVec Ideal ⟨2, ![M, K]⟩ φ₁) (B : FVec Ideal ⟨2, ![K, N]⟩ φ₂) (r : Fin M) (c : Fin N) :
    FloatOps.matmul (DotDims.plain M K N) prec A B (constant (F := Ideal) ⟨2, ![M, N]⟩ .f32 0x00000000#32) (ix2 r c)
      = lin A (col B c) r := by
  rw [Ideal.matmul_constant_zero_apply]
  exact LibMatmul.plain_sum M K N A B (ix2 r c)

/-- The plain product, at (r, c): the same sum. -/
theorem dot_entry {M K N : ℕ} {φ₁ φ₂ : FTy} (prec : Option ContractPrecision) (sched : HostSchedule)
    (A : FVec Ideal ⟨2, ![M, K]⟩ φ₁) (B : FVec Ideal ⟨2, ![K, N]⟩ φ₂) (r : Fin M) (c : Fin N) :
    FloatOps.dotGeneral (DotDims.plain M K N) prec sched A B (ix2 r c) = lin A (col B c) r := by
  rw [Ideal.dotGeneral_apply]
  exact LibMatmul.plain_sum M K N A B (ix2 r c)

variable {α : Type}

/-- An a-by-1 column spread across b columns (each operand axis kept in place) reads, at (r, c), the column at row r. -/
theorem spread_col_apply {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- A single value spread over a whole array reads that value everywhere. -/
theorem spread_scalar_apply {s : Shape} (y : (⟨0, ![]⟩ : Shape).Idx → α)
    (h : (⟨0, ![]⟩ : Shape).BroadcastsInDim s ![]) (j : s.Idx) :
    broadcastInDim s ![] h y j = y ix0 :=
  broadcastInDim_apply _ h y j ix0 fun ax => ax.elim0

end Cert.Hand.Dense

end
-- ==== Proof.LibDenseRow.lean ====
/-
  A dense layer applied to every row of a matrix, read a row at a time, over the extended reals.

  A dense layer on one row x is h ↦ (Σₖ x(k)·W(k, h)) + b(h).  Applied to every row of a matrix — a matrix product
  with a coefficient matrix, plus one bias row spread down the rows — it is, at row p, the one-row layer of row p.
  This holds for the product accumulated into the zero matrix with its bias given as a one-row matrix (the form a
  kernel body has), and for the plain product with its bias a vector spread first to one row and then down the rows
  (the form a host program has), for operands of any float formats and any extents.  A transposed coefficient
  matrix reads its operand with the two coordinates exchanged; a change of float format does not change a row; two
  matrices with the same rows are equal.
-/
import Idealize.ShloMosaic.PureOps.Ideal.Laws
import Idealize.ShloMosaic.Lib.ValueIdx
import Idealize.ShloMosaic.Lib.Pipeline.Value
import Idealize.ShloMosaic.Lib.ValueLayout
import proofs.«119974_j9156870275617_1_alg».proof.Proof.LibDense

noncomputable section

namespace LibDenseRow

open Idealize.ShloMosaic Idealize.ShloMosaic.ValueIdx Cert.Hand.Dense

/-- A dense layer on one row: output h is the sum over the inputs k of x(k)·W(k, h), plus the bias b(h). -/
def dense {K H : ℕ} (W : Fin K → Fin H → EReal) (b : Fin H → EReal) (x : Fin K → EReal) : Fin H → EReal :=
  fun h => (∑ k : Fin K, x k * W k h) + b h

/-- Row `p` of a matrix. -/
def rowAt {M K : ℕ} (X : (⟨2, ![M, K]⟩ : Shape).Idx → EReal) (p : Fin M) : Fin K → EReal := fun k => X (ix2 p k)

/-- A K-by-H matrix as coefficients: input k, output h. -/
def coef {K H : ℕ} (W : (⟨2, ![K, H]⟩ : Shape).Idx → EReal) : Fin K → Fin H → EReal := fun k h => W (ix2 k h)

/-- A one-row matrix as a vector. -/
def rowVec {H : ℕ} (b : (⟨2, ![1, H]⟩ : Shape).Idx → EReal) : Fin H → EReal := fun h => b (ix2 (0 : Fin 1) h)

/-- A vector array as a function of its one coordinate. -/
def vecOf {H : ℕ} (b : (⟨1, ![H]⟩ : Shape).Idx → EReal) : Fin H → EReal := fun h => b (ix1 h)

/-- The product accumulated into zero, plus a one-row bias spread down the rows: at row p, the dense layer of row p. -/
theorem kernel_dense_row {M K N : ℕ} {φ₁ φ₂ : FTy} (A : FVec Ideal ⟨2, ![M, K]⟩ φ₁) (B : FVec Ideal ⟨2, ![K, N]⟩ φ₂)
    (b : FVec Ideal ⟨2, ![1, N]⟩ .f32) (hb : (⟨2, ![1, N]⟩ : Shape).Broadcasts ⟨2, ![M, N]⟩) (p : Fin M) :
    rowAt (addf (FloatOps.matmul (DotDims.plain M K N) none A B (constant (F := Ideal) ⟨2, ![M, N]⟩ .f32 0x00000000#32))
        (broadcastTo ⟨2, ![M, N]⟩ b hb)) p
      = dense (coef B) (rowVec b) (rowAt A p) := by
  funext h
  show FloatOps.matmul (DotDims.plain M K N) none A B (constant (F := Ideal) ⟨2, ![M, N]⟩ .f32 0x00000000#32) (ix2 p h)
      + broadcastTo ⟨2, ![M, N]⟩ b hb (ix2 p h) = _
  rw [matmul_entry, broadcastTo_1b_ab_apply]
  rfl

/-- A vector spread to one row reads, at (0, h), the vector at h. -/
theorem spread_row_apply {N : ℕ} (v : (⟨1, ![N]⟩ : Shape).Idx → EReal)
    (h1 : (⟨1, ![N]⟩ : Shape).BroadcastsInDim ⟨2, ![1, N]⟩ ![1]) (u : Fin 1) (h : Fin N) :
    broadcastInDim ⟨2, ![1, N]⟩ ![1] h1 v (ix2 u h) = v (ix1 h) := by
  refine broadcastInDim_apply _ h1 v (ix2 u h) (ix1 h) fun ax => ?_
  match ax with
  | ⟨0, _⟩ =>
    show h.val = if N = 1 then 0 else h.val
    split
    · have := h.isLt; omega
    · rfl

/-- One row spread down M rows reads, at (p, h), the row at h. -/
theorem spread_down_apply {M N : ℕ} (v : (⟨2, ![1, N]⟩ : Shape).Idx → EReal)
    (h2 : (⟨2, ![1, N]⟩ : Shape).BroadcastsInDim ⟨2, ![M, N]⟩ ![0, 1]) (p : Fin M) (h : Fin N) :
    broadcastInDim ⟨2, ![M, N]⟩ ![0, 1] h2 v (ix2 p h) = v (ix2 (0 : Fin 1) h) := by
  refine broadcastInDim_apply _ h2 v (ix2 p h) (ix2 (0 : Fin 1) h) fun ax => ?_
  match ax with
  | ⟨0, _⟩ =>
    show (0 : ℕ) = if (1 : ℕ) = 1 then 0 else p.val
    rw [if_pos rfl]
  | ⟨1, _⟩ =>
    show h.val = if N = 1 then 0 else h.val
    split
    · have := h.isLt; omega
    · rfl

/-- The plain product plus a bias vector spread to a row and down the rows: at row p, the dense layer of row p. -/
theorem host_dense_row {M K N : ℕ} {φ₁ φ₂ : FTy} (A : FVec Ideal ⟨2, ![M, K]⟩ φ₁) (B : FVec Ideal ⟨2, ![K, N]⟩ φ₂)
    (v : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) :
    rowAt (addf (Host.dotGeneral (DotDims.plain M K N) none A B)
        (broadcastInDim ⟨2, ![M, N]⟩ ![0, 1] h2 (broadcastInDim ⟨2, ![1, N]⟩ ![1] h1 v))) p
      = dense (coef B) (vecOf v) (rowAt A p) := by
  funext h
  show FloatOps.dotGeneral (DotDims.plain M K N) none .single A B (ix2 p h)
      + broadcastInDim ⟨2, ![M, N]⟩ ![0, 1] h2 (broadcastInDim ⟨2, ![1, N]⟩ ![1] h1 v) (ix2 p h) = _
  rw [dot_entry, spread_down_apply, spread_row_apply]
  rfl

/-- A transposed H-by-K matrix, as coefficients (k, h), reads the operand at (h, k). -/
theorem coef_transpose {K H : ℕ} (W : (⟨2, ![H, K]⟩ : Shape).Idx → EReal)
    (ht : (⟨2, ![H, K]⟩ : Shape).Transposes [1, 0] ⟨2, ![K, H]⟩) :
    coef (transpose ⟨2, ![K, H]⟩ [1, 0] W ht) = fun k h => W (ix2 h k) := by
  funext k h
  exact transpose_apply [1, 0] W ht (ix2 k h) (ix2 h k) (fun b => match b with
    | ⟨0, _⟩ => rfl
    | ⟨1, _⟩ => rfl)

/-- A change of float format does not change a row. -/
theorem trunc_row {M N : ℕ} {φ ψ : FTy} (X : FVec Ideal ⟨2, ![M, N]⟩ φ) (h : ψ.bits < φ.bits) (p : Fin M) :
    rowAt (truncf ψ X h : FVec Ideal ⟨2, ![M, N]⟩ ψ) p = rowAt X p := rfl

/-- Two matrices with the same rows are the same matrix. -/
theorem eq_of_rows {M N : ℕ} (A B : (⟨2, ![M, N]⟩ : Shape).Idx → EReal) (h : ∀ p : Fin M, rowAt A p = rowAt B p) :
    A = B := by
  funext i
  obtain ⟨p, q, rfl⟩ : ∃ (p : Fin M) (q : Fin N), i = ix2 p q := ⟨i 0, i 1, eq_ix2 i⟩
  exact congrFun (h p) q

end LibDenseRow

end
-- ==== Proof.RowNet.lean ====
/-
  The network one row of the state goes through, over the extended reals.

  A row x of 16 numbers passes two tanh layers of a first network (t1 = tanh(x·W1 + b1), t2 = tanh(t1·W2 + b2));
  their derivative factors 1 - t² gate a second network on the same row: with the half-weights of the mixing ratio,
  g1 = ½·f1·(1 - t2²) + ½·tanh f1 for f1 = x·V1 + c1, g2 = ½·f2·(1 - t1²) + ½·tanh f2 for f2 = g1·V2 + c2, and
  f3 = g2·V3 + c3.  The result swaps the two halves of f3 and negates the second: (f3[8..16), -f3[0..8)).
  Weights are given as coefficients (input k, output h), a dense layer on one row being h ↦ Σₖ x(k)·W(k, h) + b(h);
  the literals one and one half stay as their bit patterns.
-/
import Idealize.ShloMosaic.PureOps.Ideal
import proofs.«119974_j9156870275617_1_alg».proof.Proof.LibDenseRow

noncomputable section

namespace Cert.Hand.RowNet

open Idealize.ShloMosaic LibDenseRow

/-- tanh, entry by entry. -/
def act {H : ℕ} (a : Fin H → EReal) : Fin H → EReal := fun h => Ideal.tanh (a h)

/-- The derivative factor of tanh at a value t = tanh a: 1 - t². -/
def slope {H : ℕ} (t : Fin H → EReal) : Fin H → EReal :=
  fun h => (Ideal.ofBits .f32 0x3F800000#32 : EReal) - t h * t h

/-- The mixed activation: ½·f·s + ½·tanh f, entry by entry. -/
def mix {H : ℕ} (f s : Fin H → EReal) : Fin H → EReal :=
  fun h => (Ideal.ofBits .f32 0x3F000000#32 : EReal) * f h * s h
    + (Ideal.ofBits .f32 0x3F000000#32 : EReal) * Ideal.tanh (f h)

/-- The symplectic swap of a 16-vector: entries 8..16 first, then the negated entries 0..8. -/
def swapNeg (f : Fin 16 → EReal) : Fin 16 → EReal :=
  fun j => if h : j.val < 8 then f ⟨j.val + 8, by omega⟩ else -(f ⟨j.val - 8, by omega⟩)

/-- The ten parameter arrays, as coefficients and bias vectors. -/
structure Params where
  hW1 : Fin 16 → Fin 256 → EReal
  hb1 : Fin 256 → EReal
  hW2 : Fin 256 → Fin 256 → EReal
  hb2 : Fin 256 → EReal
  fW1 : Fin 16 → Fin 256 → EReal
  fb1 : Fin 256 → EReal
  fW2 : Fin 256 → Fin 256 → EReal
  fb2 : Fin 256 → EReal
  fW3 : Fin 256 → Fin 16 → EReal
  fb3 : Fin 16 → EReal

/-- First hidden value of the first network. -/
def t1 (P : Params) (x : Fin 16 → EReal) : Fin 256 → EReal := act (dense P.hW1 P.hb1 x)
/-- Second hidden value of the first network. -/
def t2 (P : Params) (x : Fin 16 → EReal) : Fin 256 → EReal := act (dense P.hW2 P.hb2 (t1 P x))
/-- First gated value of the second network. -/
def g1 (P : Params) (x : Fin 16 → EReal) : Fin 256 → EReal := mix (dense P.fW1 P.fb1 x) (slope (t2 P x))
/-- Second gated value of the second network. -/
def g2 (P : Params) (x : Fin 16 → EReal) : Fin 256 → EReal := mix (dense P.fW2 P.fb2 (g1 P x)) (slope (t1 P x))
/-- The output layer before the swap. -/
def f3 (P : Params) (x : Fin 16 → EReal) : Fin 16 → EReal := dense P.fW3 P.fb3 (g2 P x)
/-- The whole map of one row. -/
def net (P : Params) (x : Fin 16 → EReal) : Fin 16 → EReal := swapNeg (f3 P x)

end Cert.Hand.RowNet

end
-- ==== Proof.LibConcatCols.lean ====
/-
  Two matrices with the same number of rows laid side by side, read at an index.

  The concatenation along the column axis of an a-by-b matrix and an a-by-c matrix reads, at row p and column k,
  the first matrix at (p, k) when k < b, and the second matrix at (p, k - b) otherwise.
-/
import Idealize.ShloMosaic.Lib.ValueIdx
import Idealize.ShloMosaic.Lib.Pipeline.Value

namespace LibConcatCols

open Idealize.ShloMosaic Idealize.ShloMosaic.ValueIdx

variable {α : Type}

/-- A column in the first piece's range reads the first piece. -/
theorem concat_cols_left {a b c n : ℕ} (x₁ : (⟨2, ![a, b]⟩ : Shape).Idx → α) (x₂ : (⟨2, ![a, c]⟩ : Shape).Idx → α)
    (h : Shape.Concatenates [⟨2, ![a, b]⟩, ⟨2, ![a, c]⟩] ⟨2, ![a, n]⟩ 1) (p : Fin a) (k : Fin n) (k' : Fin b)
    (hk : k'.val = k.val) :
    concatenate ⟨2, ![a, n]⟩ 1 [⟨⟨2, ![a, b]⟩, x₁⟩, ⟨⟨2, ![a, c]⟩, x₂⟩] h (ix2 p k) = x₁ (ix2 p k') :=
  concatenate_pair_apply_left 1 x₁ x₂ h (ix2 p k) rfl (ix2 p k') (fun d => by
    match d with
    | ⟨0, _⟩ => rfl
    | ⟨1, _⟩ => exact hk)

/-- A column past the first piece's range reads the second piece, the first piece's width less. -/
theorem concat_cols_right {a b c n : ℕ} (x₁ : (⟨2, ![a, b]⟩ : Shape).Idx → α) (x₂ : (⟨2, ![a, c]⟩ : Shape).Idx → α)
    (h : Shape.Concatenates [⟨2, ![a, b]⟩, ⟨2, ![a, c]⟩] ⟨2, ![a, n]⟩ 1) (p : Fin a) (k : Fin n) (k' : Fin c)
    (hk : k'.val + b = k.val) :
    concatenate ⟨2, ![a, n]⟩ 1 [⟨⟨2, ![a, b]⟩, x₁⟩, ⟨⟨2, ![a, c]⟩, x₂⟩] h (ix2 p k) = x₂ (ix2 p k') :=
  concatenate_pair_apply_right 1 x₁ x₂ h (ix2 p k) rfl rfl (ix2 p k') (fun d hd => by
    match d, hd with
    | ⟨0, _⟩, _ => rfl
    | ⟨1, _⟩, hd => exact absurd rfl hd) hk

end LibConcatCols
-- ==== Proof.LibSlice2.lean ====
/-
  A rectangular cut of a matrix, read at an index: entry (a, b) of the cut that starts at row o₀ and column o₁ is
  entry (o₀ + a, o₁ + b) of the matrix.
-/
import Idealize.ShloMosaic.Lib.ValueIdx
import Idealize.ShloMosaic.Lib.Pipeline.Value

namespace LibSlice2

open Idealize.ShloMosaic Idealize.ShloMosaic.ValueIdx

variable {α : Type}

/-- A matrix cut from (o₀, o₁) reads, at (a, b), the matrix at (a', b') with a' = o₀ + a and b' = o₁ + b. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩)
    (a : Fin m0) (b : Fin m1) (a' : Fin n0) (b' : Fin n1) (ha : a'.val = o0 + a.val) (hb : b'.val = o1 + b.val) :
    extractStridedSlice ⟨2, ![m0, m1]⟩ ![o0, o1] X h (ix2 a b) = X (ix2 a' b') :=
  extractStridedSlice_apply _ _ _ _ _ (fun ax => by
    match ax with
    | ⟨0, _⟩ => exact ha
    | ⟨1, _⟩ => exact hb)

end LibSlice2
-- ==== Proof.SwapRow.lean ====
/-
  The symplectic swap of a matrix with 16 columns, read a row at a time.

  Laying columns 8..16 of a matrix beside the negation of its columns 0..8 gives, at row p, the swap of row p:
  entry j is entry j + 8 of the row for j < 8, and minus entry j - 8 otherwise.  The negation may be written as
  zero minus the value or as the negation itself: on the extended reals both are the same number.
-/
import Idealize.ShloMosaic.PureOps.Ideal.Laws
import proofs.«119974_j9156870275617_1_alg».proof.Proof.LibDenseRow
import proofs.«119974_j9156870275617_1_alg».proof.Proof.RowNet
import proofs.«119974_j9156870275617_1_alg».proof.Proof.LibConcatCols
import proofs.«119974_j9156870275617_1_alg».proof.Proof.LibSlice2

noncomputable section

namespace Cert.Hand.Rows

open Idealize.ShloMosaic Idealize.ShloMosaic.ValueIdx Cert.Hand.RowNet LibDenseRow

/-- Columns 8..16 beside a matrix Y that is, entry by entry, minus columns 0..8: at row p, the swap of row p. -/
theorem swap_row_of {M : ℕ} (X : (⟨2, ![M, 16]⟩ : Shape).Idx → EReal) (Y : (⟨2, ![M, 8]⟩ : Shape).Idx → EReal)
    (hs : (⟨2, ![M, 16]⟩ : Shape).Slices ![0, 8] ⟨2, ![M, 8]⟩)
    (hc : Shape.Concatenates [⟨2, ![M, 8]⟩, ⟨2, ![M, 8]⟩] ⟨2, ![M, 16]⟩ 1)
    (hY : ∀ (p : Fin M) (j : Fin 8), Y (ix2 p j) = -(X (ix2 p ⟨j.val, by omega⟩)))
    (p : Fin M) :
    rowAt (concatenate ⟨2, ![M, 16]⟩ 1
        [⟨⟨2, ![M, 8]⟩, extractStridedSlice ⟨2, ![M, 8]⟩ ![0, 8] X hs⟩, ⟨⟨2, ![M, 8]⟩, Y⟩] hc) p
      = swapNeg (rowAt X p) := by
  funext j
  show concatenate ⟨2, ![M, 16]⟩ 1
      [⟨⟨2, ![M, 8]⟩, extractStridedSlice ⟨2, ![M, 8]⟩ ![0, 8] X hs⟩, ⟨⟨2, ![M, 8]⟩, Y⟩] hc (ix2 p j) = swapNeg (rowAt X p) j
  unfold swapNeg
  by_cases h : j.val < 8
  · rw [dif_pos h, LibConcatCols.concat_cols_left _ _ hc p j ⟨j.val, h⟩ rfl,
      LibSlice2.slice2_apply 0 8 X hs p ⟨j.val, h⟩ p ⟨j.val + 8, by omega⟩ (by omega) (by show j.val + 8 = 8 + j.val; omega)]
    rfl
  · rw [dif_neg h, LibConcatCols.concat_cols_right _ _ hc p j ⟨j.val - 8, by omega⟩ (by show j.val - 8 + 8 = j.val; omega), hY]
    rfl

/-- The swap with the negation written as zero minus the value. -/
theorem kernel_swap_row {M : ℕ} (X : FVec Ideal ⟨2, ![M, 16]⟩ .f32)
    (hs8 : (⟨2, ![M, 16]⟩ : Shape).Slices ![0, 8] ⟨2, ![M, 8]⟩)
    (hs0 : (⟨2, ![M, 16]⟩ : Shape).Slices ![0, 0] ⟨2, ![M, 8]⟩)
    (hc : Shape.Concatenates [⟨2, ![M, 8]⟩, ⟨2, ![M, 8]⟩] ⟨2, ![M, 16]⟩ 1) (p : Fin M) :
    rowAt (concatenate ⟨2, ![M, 16]⟩ 1
        [⟨⟨2, ![M, 8]⟩, extractStridedSlice ⟨2, ![M, 8]⟩ ![0, 8] X hs8⟩,
         ⟨⟨2, ![M, 8]⟩, subf (broadcast ⟨2, ![M, 8]⟩ (Scalar.ofBits (F := Ideal) .f32 0x00000000#32))
            (extractStridedSlice ⟨2, ![M, 8]⟩ ![0, 0] X hs0)⟩] hc) p
      = swapNeg (rowAt X p) :=
  swap_row_of X _ hs8 hc (fun q j => by
    show Ideal.ofBits .f32 0x00000000#32 - extractStridedSlice ⟨2, ![M, 8]⟩ ![0, 0] X hs0 (ix2 q j) = _
    rw [Ideal.ofBits_zero_f32, zero_sub,
      LibSlice2.slice2_apply 0 0 X hs0 q j q ⟨j.val, by omega⟩ (by omega) (by show j.val = 0 + j.val; omega)]) p

/-- The swap with the host's negation. -/
theorem host_swap_row {M : ℕ} (X : FVec Ideal ⟨2, ![M, 16]⟩ .f32)
    (hs8 : (⟨2, ![M, 16]⟩ : Shape).Slices ![0, 8] ⟨2, ![M, 8]⟩)
    (hs0 : (⟨2, ![M, 16]⟩ : Shape).Slices ![0, 0] ⟨2, ![M, 8]⟩)
    (hc : Shape.Concatenates [⟨2, ![M, 8]⟩, ⟨2, ![M, 8]⟩] ⟨2, ![M, 16]⟩ 1) (p : Fin M) :
    rowAt (concatenate ⟨2, ![M, 16]⟩ 1
        [⟨⟨2, ![M, 8]⟩, extractStridedSlice ⟨2, ![M, 8]⟩ ![0, 8] X hs8⟩,
         ⟨⟨2, ![M, 8]⟩, Host.negf (extractStridedSlice ⟨2, ![M, 8]⟩ ![0, 0] X hs0)⟩] hc) p
      = swapNeg (rowAt X p) :=
  swap_row_of X _ hs8 hc (fun q j => by
    show -(extractStridedSlice ⟨2, ![M, 8]⟩ ![0, 0] X hs0 (ix2 q j)) = _
    rw [LibSlice2.slice2_apply 0 0 X hs0 q j q ⟨j.val, by omega⟩ (by omega) (by show j.val = 0 + j.val; omega)]) p

/-- One minus the square, entry by entry: at row p, the derivative factor of row p. -/
theorem slope_row {M N : ℕ} (T : FVec Ideal ⟨2, ![M, N]⟩ .f32) (p : Fin M) :
    rowAt (subf (broadcast ⟨2, ![M, N]⟩ (Scalar.ofBits (F := Ideal) .f32 0x3F800000#32)) (mulf T T)) p
      = slope (rowAt T p) := rfl

/-- The mixed activation, entry by entry: at row p, the mix of the two rows. -/
theorem mix_row {M N : ℕ} (Fm Sm : FVec Ideal ⟨2, ![M, N]⟩ .f32) (p : Fin M) :
    rowAt (addf (mulf (mulf (broadcast ⟨2, ![M, N]⟩ (Scalar.ofBits (F := Ideal) .f32 0x3F000000#32)) Fm) Sm)
        (mulf (broadcast ⟨2, ![M, N]⟩ (Scalar.ofBits (F := Ideal) .f32 0x3F000000#32)) (tanh Fm))) p
      = mix (rowAt Fm p) (rowAt Sm p) := rfl

/-- tanh, entry by entry: at row p, tanh of row p. -/
theorem act_row {M N : ℕ} (A : FVec Ideal ⟨2, ![M, N]⟩ .f32) (p : Fin M) : rowAt (tanh A) p = act (rowAt A p) := rfl

end Cert.Hand.Rows

end
-- ==== Proof.KernelRow.lean ====
/-
  The kernel body, read a row at a time.

  On one block of 2048 rows the body computes, from the block of the state and the ten resident parameter blocks,
  a 2048-by-16 result.  Every operation of the body acts row by row — the matrix products contract along a row,
  everything else is entry by entry — so row p of the result is the network of one row (RowNet) applied to row p
  of the state block, with the parameter blocks read as coefficients and bias vectors.  The changes of float
  format are the identity on the extended reals, and the casts of a block to its own shape change nothing.
-/
import proofs.«119974_j9156870275617_1_alg».proof.Proof.Gen.KernelIdeal.Skeleton
import proofs.«119974_j9156870275617_1_alg».proof.Proof.SwapRow

noncomputable section

namespace Cert.Hand.KernelRow

open Idealize.ShloMosaic Idealize.ShloMosaic.ValueIdx Cert.Hand.RowNet Cert.Hand.Rows LibDenseRow
open Cert.KernelIdeal Cert.KernelIdeal.Gen

/-- The parameters as the body sees them: five coefficient blocks and five one-row bias blocks. -/
def blockParams (x1 : Vec Ideal S16x256 .bf16) (x2 : Vec Ideal S1x256 .f32) (x3 : Vec Ideal S256x256 .bf16)
    (x4 : Vec Ideal S1x256 .f32) (x5 : Vec Ideal S16x256 .bf16) (x6 : Vec Ideal S1x256 .f32)
    (x7 : Vec Ideal S256x256 .bf16) (x8 : Vec Ideal S1x256 .f32) (x9 : Vec Ideal S256x16 .bf16)
    (x10 : Vec Ideal S1x16 .f32) : Params where
  hW1 := coef x1
  hb1 := rowVec x2
  hW2 := coef x3
  hb2 := rowVec x4
  fW1 := coef x5
  fb1 := rowVec x6
  fW2 := coef x7
  fb2 := rowVec x8
  fW3 := coef x9
  fb3 := rowVec x10

/-- The first hidden value of the first network, at row p. -/
theorem t1_row (v0 : Vec Ideal S2048x16 .f32) (v2 : Vec Ideal S16x256 .bf16) (v4 : Vec Ideal S1x256 .f32) (p : Fin 2048) :
    rowAt (k0_pay9 (F := Ideal) v0 v2 v4) p = act (dense (coef v2) (rowVec v4) (rowAt v0 p)) := by
  unfold k0_pay9 k0_pay2
  simp only [shapeCast_self]
  exact congrArg act (kernel_dense_row (M := 2048) (K := 16) (N := 256)
    (truncf .bf16 v0 bitsLt_bf16_f32) v2 v4 broadcasts_S1x256_S2048x256 p)

/-- Its derivative factor, at row p. -/
theorem s1_row (v0 : Vec Ideal S2048x16 .f32) (v2 : Vec Ideal S16x256 .bf16) (v4 : Vec Ideal S1x256 .f32) (p : Fin 2048) :
    rowAt (k0_pay10 (F := Ideal) v0 v2 v4) p = slope (rowAt (k0_pay9 (F := Ideal) v0 v2 v4) p) := rfl

/-- The second hidden value of the first network, at row p. -/
theorem t2_row (v0 : Vec Ideal S2048x16 .f32) (v2 : Vec Ideal S16x256 .bf16) (v4 : Vec Ideal S1x256 .f32)
    (v6 : Vec Ideal S256x256 .bf16) (v8 : Vec Ideal S1x256 .f32) (p : Fin 2048) :
    rowAt (k0_pay11 (F := Ideal) v0 v2 v4 v6 v8) p
      = act (dense (coef v6) (rowVec v8) (rowAt (k0_pay9 (F := Ideal) v0 v2 v4) p)) := by
  unfold k0_pay11
  simp only [shapeCast_self]
  exact congrArg act (kernel_dense_row (M := 2048) (K := 256) (N := 256)
    (truncf .bf16 (k0_pay9 (F := Ideal) v0 v2 v4) bitsLt_bf16_f32) v6 v8 broadcasts_S1x256_S2048x256 p)

/-- The second network down to the swap, at row p: from the state block's row, the first network's second hidden
    row (t2) and the derivative factor of its first (s1). -/
theorem flex_row (v1 : FVec Ideal S2048x16 .bf16) (v11 : FVec Ideal S16x256 .bf16) (v13 : FVec Ideal S1x256 .f32)
    (v15 : FVec Ideal S256x256 .bf16) (v17 : FVec Ideal S1x256 .f32) (v19 : FVec Ideal S256x16 .bf16)
    (v21 : FVec Ideal S1x16 .f32) (v28 v33 : FVec Ideal S2048x256 .f32) (p : Fin 2048) :
    rowAt (k0_pay1 (F := Ideal) v1 v11 v13 v15 v17 v19 v21 v28 v33) p
      = swapNeg (dense (coef v19) (rowVec v21)
          (mix (dense (coef v15) (rowVec v17)
            (mix (dense (coef v11) (rowVec v13) (rowAt v1 p)) (slope (rowAt v33 p)))) (rowAt v28 p))) := by
  unfold k0_pay1
  dsimp only
  refine (kernel_swap_row (M := 2048) _ slices_S2048x16_o0_8_S2048x8 slices_S2048x16_o0_0_S2048x8
    concatenates_S2048x8_S2048x8_S2048x16_d1 p).trans (congrArg swapNeg ?_)
  refine (kernel_dense_row (M := 2048) (K := 256) (N := 16) _ v19 v21 broadcasts_S1x16_S2048x16 p).trans
    (congrArg (dense (coef v19) (rowVec v21)) ?_)
  refine (trunc_row _ bitsLt_bf16_f32 p).trans ?_
  refine (mix_row (M := 2048) (N := 256) _ v28 p).trans (congrArg (fun f => mix f (rowAt v28 p)) ?_)
  refine (kernel_dense_row (M := 2048) (K := 256) (N := 256) _ v15 v17 broadcasts_S1x256_S2048x256 p).trans
    (congrArg (dense (coef v15) (rowVec v17)) ?_)
  refine (trunc_row _ bitsLt_bf16_f32 p).trans ?_
  refine (mix_row (M := 2048) (N := 256) _ _ p).trans (congrArg₂ mix ?_ ?_)
  · exact kernel_dense_row (M := 2048) (K := 16) (N := 256) v1 v11 v13 broadcasts_S1x256_S2048x256 p
  · exact slope_row (M := 2048) (N := 256) v33 p

/-- ROW p OF THE BODY'S RESULT is the network of one row applied to row p of the state block. -/
theorem body_row (x0 : Vec Ideal S2048x16 .f32) (x1 : Vec Ideal S16x256 .bf16) (x2 : Vec Ideal S1x256 .f32)
    (x3 : Vec Ideal S256x256 .bf16) (x4 : Vec Ideal S1x256 .f32) (x5 : Vec Ideal S16x256 .bf16)
    (x6 : Vec Ideal S1x256 .f32) (x7 : Vec Ideal S256x256 .bf16) (x8 : Vec Ideal S1x256 .f32)
    (x9 : Vec Ideal S256x16 .bf16) (x10 : Vec Ideal S1x16 .f32) (p : Fin 2048) :
    rowAt (k0_pay1 (F := Ideal) (k0_pay2 x0) (k0_pay3 x5) (k0_pay4 x6) (k0_pay5 x7) (k0_pay6 x8) (k0_pay7 x9) (k0_pay8 x10)
        (k0_pay10 x0 x1 x2) (k0_pay11 x0 x1 x2 x3 x4)) p
      = net (blockParams x1 x2 x3 x4 x5 x6 x7 x8 x9 x10) (rowAt x0 p) := by
  rw [flex_row]
  unfold k0_pay3 k0_pay4 k0_pay5 k0_pay6 k0_pay7 k0_pay8
  simp only [shapeCast_self]
  rw [t2_row, s1_row, t1_row]
  rfl

end Cert.Hand.KernelRow

end
-- ==== Proof.NetSpec.lean ====
/-
  The result array as one function of the argument arrays.

  Row r of the result is the network of one row (RowNet) applied to row r of the state array.  The weight arrays
  are stored output-major (256-by-16, 256-by-256, 16-by-256): coefficient (input k, output h) is the array's entry
  (h, k).  The bias arrays are vectors.
-/
import proofs.«119974_j9156870275617_1_alg».proof.Proof.LibDenseRow
import proofs.«119974_j9156870275617_1_alg».proof.Proof.RowNet

noncomputable section

namespace Cert.Hand.NetSpec

open Idealize.ShloMosaic Idealize.ShloMosaic.ValueIdx Cert.Hand.RowNet LibDenseRow

/-- The parameters read off the argument arrays. -/
def arrayParams (a2 : (⟨2, ![256, 16]⟩ : Shape).Idx → EReal) (a3 : (⟨1, ![256]⟩ : Shape).Idx → EReal)
    (a4 : (⟨2, ![256, 256]⟩ : Shape).Idx → EReal) (a5 : (⟨1, ![256]⟩ : Shape).Idx → EReal)
    (a6 : (⟨2, ![256, 16]⟩ : Shape).Idx → EReal) (a7 : (⟨1, ![256]⟩ : Shape).Idx → EReal)
    (a8 : (⟨2, ![256, 256]⟩ : Shape).Idx → EReal) (a9 : (⟨1, ![256]⟩ : Shape).Idx → EReal)
    (a10 : (⟨2, ![16, 256]⟩ : Shape).Idx → EReal) (a11 : (⟨1, ![16]⟩ : Shape).Idx → EReal) : Params where
  hW1 := fun k h => a2 (ix2 h k)
  hb1 := vecOf a3
  hW2 := fun k h => a4 (ix2 h k)
  hb2 := vecOf a5
  fW1 := fun k h => a6 (ix2 h k)
  fb1 := vecOf a7
  fW2 := fun k h => a8 (ix2 h k)
  fb2 := vecOf a9
  fW3 := fun k h => a10 (ix2 h k)
  fb3 := vecOf a11

/-- THE RESULT ARRAY: entry (r, j) is entry j of the network of row r of the state. -/
def G (z : (⟨2, ![131072, 16]⟩ : Shape).Idx → EReal) (P : Params) : (⟨2, ![131072, 16]⟩ : Shape).Idx → EReal :=
  fun i => net P (rowAt z (LibMatmul.rowOf i)) (LibMatmul.colOf i)

theorem G_row (z : (⟨2, ![131072, 16]⟩ : Shape).Idx → EReal) (P : Params) (r : Fin 131072) :
    rowAt (G z P) r = net P (rowAt z r) := rfl

end Cert.Hand.NetSpec

end
-- ==== Proof.KernelArray.lean ====
/-
  From blocks to the array: what the kernel leaves in its result array.

  The grid has 64 points; point t works on rows 2048·t .. 2048·t + 2047 of the state and writes the same rows of the
  result, while the ten parameter windows stage their whole arrays at every point.  Before the region the host
  transposes each weight array (and changes its float format, the identity on the extended reals) and recasts each
  bias vector as one row.  So what point t writes back is block t of the one function G of the argument arrays
  (NetSpec), and since the 64 blocks tile the result array, the array ends holding G.
-/
import proofs.«119974_j9156870275617_1_alg».proof.Proof.Gen.KernelIdeal.Value
import proofs.«119974_j9156870275617_1_alg».proof.Proof.KernelRow
import proofs.«119974_j9156870275617_1_alg».proof.Proof.NetSpec
import Idealize.ShloMosaic.Lib.StableHlo.Run
import Idealize.ShloMosaic.Lib.ValueLayout

set_option maxRecDepth 16384

noncomputable section

namespace Cert.Hand.KernelArray

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.Hand.RowNet Cert.Hand.Rows Cert.Hand.NetSpec LibDenseRow Cert.Hand.KernelRow

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 grid points: the state window moves with the result window, one
    block of rows per point; every parameter window stays at block (0, 0). -/
theorem idx_facts : ∀ t : Fin cfg0.N, win0_0.index t (0 : Fin 2) = win0_11.index t (0 : Fin 2)
    ∧ win0_0.index t (1 : Fin 2) = 0
    ∧ win0_11.index t (1 : Fin 2) = 0
    ∧ win0_11.index t (0 : Fin 2) = t.val
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- The array window 1 stages, as the region finds it: the transposed weight array, its float format changed. -/
theorem V_main_v1 (c : Dev nD) : (V m c main_v1 : S16x256.Idx → EReal)
    = truncf (F := Ideal) .bf16 (transpose S16x256 [1, 0] (m ((c : Thread nD τ).loc main_arg2)) transposes_S256x16_S16x256_1_0) bitsLt_bf16_f32 := by
  dsimp only [Gen.V, Gen.hostOps0]; after_results

/-- Window 1's block, as coefficients: entry (h, k) of the weight array. -/
theorem coef_blk1 (c : Dev nD) (t : Fin cfg0.N) :
    coef (iblk m c 1 t) = fun k h => (m ((c : Thread nD τ).loc main_arg2)) (ix2 h k) := by
  funext k h
  obtain ⟨e0, e1, e2, e3, a1, b1, a2, b2, a3, b3, a4, b4, a5, b5, a6, b6, a7, b7, a8, b8, a9, b9, a10, b10⟩ := idx_facts t
  have hb : iblk m c 1 t (ix2 k h) = (V m c main_v1 : S16x256.Idx → EReal) (ix2 k h) := by
    show V m c main_v1 (((cfg0.win 1).blk t).view.emb (ix2 k h)) = V m c main_v1 (ix2 k h)
    refine congrArg _ (funext fun a => Fin.ext ?_)
    match a with
    | ⟨0, _⟩ => show win0_1.index t (0 : Fin 2) * 16 + 1 * k.val = k.val; omega
    | ⟨1, _⟩ => show win0_1.index t (1 : Fin 2) * 256 + 1 * h.val = h.val; omega
  refine hb.trans ?_
  rw [V_main_v1]
  exact congrFun (congrFun (coef_transpose (m ((c : Thread nD τ).loc main_arg2)) transposes_S256x16_S16x256_1_0) k) h

/-- The array window 2 stages, as the region finds it: the bias vector as one row. -/
theorem V_main_v10 (c : Dev nD) : (V m c main_v10 : S1x256.Idx → EReal)
    = shapeCast (α := EReal) S1x256 (m ((c : Thread nD τ).loc main_arg3)) shapeCasts_S256_S1x256 := by
  dsimp only [Gen.V, Gen.hostOps0]; after_results; rfl

/-- Window 2's block, as a vector: the bias array. -/
theorem vec_blk2 (c : Dev nD) (t : Fin cfg0.N) :
    rowVec (iblk m c 2 t) = vecOf (m ((c : Thread nD τ).loc main_arg3)) := by
  funext h
  obtain ⟨e0, e1, e2, e3, a1, b1, a2, b2, a3, b3, a4, b4, a5, b5, a6, b6, a7, b7, a8, b8, a9, b9, a10, b10⟩ := idx_facts t
  have hb : iblk m c 2 t (ix2 (0 : Fin 1) h) = (V m c main_v10 : S1x256.Idx → EReal) (ix2 (0 : Fin 1) h) := by
    show V m c main_v10 (((cfg0.win 2).blk t).view.emb (ix2 (0 : Fin 1) h)) = V m c main_v10 (ix2 (0 : Fin 1) h)
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * h.val = h.val; omega
  refine hb.trans ?_
  rw [V_main_v10]
  exact shapeCast_a_1a_apply (m ((c : Thread nD τ).loc main_arg3)) shapeCasts_S256_S1x256 0 h

/-- The array window 3 stages, as the region finds it: the transposed weight array, its float format changed. -/
theorem V_main_v3 (c : Dev nD) : (V m c main_v3 : S256x256.Idx → EReal)
    = truncf (F := Ideal) .bf16 (transpose S256x256 [1, 0] (m ((c : Thread nD τ).loc main_arg4)) transposes_S256x256_S256x256_1_0) bitsLt_bf16_f32 := by
  dsimp only [Gen.V, Gen.hostOps0]; after_results

/-- Window 3's block, as coefficients: entry (h, k) of the weight array. -/
theorem coef_blk3 (c : Dev nD) (t : Fin cfg0.N) :
    coef (iblk m c 3 t) = fun k h => (m ((c : Thread nD τ).loc main_arg4)) (ix2 h k) := by
  funext k h
  obtain ⟨e0, e1, e2, e3, a1, b1, a2, b2, a3, b3, a4, b4, a5, b5, a6, b6, a7, b7, a8, b8, a9, b9, a10, b10⟩ := idx_facts t
  have hb : iblk m c 3 t (ix2 k h) = (V m c main_v3 : S256x256.Idx → EReal) (ix2 k h) := by
    show V m c main_v3 (((cfg0.win 3).blk t).view.emb (ix2 k h)) = V m c main_v3 (ix2 k h)
    refine congrArg _ (funext fun a => Fin.ext ?_)
    match a with
    | ⟨0, _⟩ => show win0_3.index t (0 : Fin 2) * 256 + 1 * k.val = k.val; omega
    | ⟨1, _⟩ => show win0_3.index t (1 : Fin 2) * 256 + 1 * h.val = h.val; omega
  refine hb.trans ?_
  rw [V_main_v3]
  exact congrFun (congrFun (coef_transpose (m ((c : Thread nD τ).loc main_arg4)) transposes_S256x256_S256x256_1_0) k) h

/-- The array window 4 stages, as the region finds it: the bias vector as one row. -/
theorem V_main_v11 (c : Dev nD) : (V m c main_v11 : S1x256.Idx → EReal)
    = shapeCast (α := EReal) S1x256 (m ((c : Thread nD τ).loc main_arg5)) shapeCasts_S256_S1x256 := by
  dsimp only [Gen.V, Gen.hostOps0]; after_results; rfl

/-- Window 4's block, as a vector: the bias array. -/
theorem vec_blk4 (c : Dev nD) (t : Fin cfg0.N) :
    rowVec (iblk m c 4 t) = vecOf (m ((c : Thread nD τ).loc main_arg5)) := by
  funext h
  obtain ⟨e0, e1, e2, e3, a1, b1, a2, b2, a3, b3, a4, b4, a5, b5, a6, b6, a7, b7, a8, b8, a9, b9, a10, b10⟩ := idx_facts t
  have hb : iblk m c 4 t (ix2 (0 : Fin 1) h) = (V m c main_v11 : S1x256.Idx → EReal) (ix2 (0 : Fin 1) h) := by
    show V m c main_v11 (((cfg0.win 4).blk t).view.emb (ix2 (0 : Fin 1) h)) = V m c main_v11 (ix2 (0 : Fin 1) h)
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * h.val = h.val; omega
  refine hb.trans ?_
  rw [V_main_v11]
  exact shapeCast_a_1a_apply (m ((c : Thread nD τ).loc main_arg5)) shapeCasts_S256_S1x256 0 h

/-- The array window 5 stages, as the region finds it: the transposed weight array, its float format changed. -/
theorem V_main_v5 (c : Dev nD) : (V m c main_v5 : S16x256.Idx → EReal)
    = truncf (F := Ideal) .bf16 (transpose S16x256 [1, 0] (m ((c : Thread nD τ).loc main_arg6)) transposes_S256x16_S16x256_1_0) bitsLt_bf16_f32 := by
  dsimp only [Gen.V, Gen.hostOps0]; after_results

/-- Window 5's block, as coefficients: entry (h, k) of the weight array. -/
theorem coef_blk5 (c : Dev nD) (t : Fin cfg0.N) :
    coef (iblk m c 5 t) = fun k h => (m ((c : Thread nD τ).loc main_arg6)) (ix2 h k) := by
  funext k h
  obtain ⟨e0, e1, e2, e3, a1, b1, a2, b2, a3, b3, a4, b4, a5, b5, a6, b6, a7, b7, a8, b8, a9, b9, a10, b10⟩ := idx_facts t
  have hb : iblk m c 5 t (ix2 k h) = (V m c main_v5 : S16x256.Idx → EReal) (ix2 k h) := by
    show V m c main_v5 (((cfg0.win 5).blk t).view.emb (ix2 k h)) = V m c main_v5 (ix2 k h)
    refine congrArg _ (funext fun a => Fin.ext ?_)
    match a with
    | ⟨0, _⟩ => show win0_5.index t (0 : Fin 2) * 16 + 1 * k.val = k.val; omega
    | ⟨1, _⟩ => show win0_5.index t (1 : Fin 2) * 256 + 1 * h.val = h.val; omega
  refine hb.trans ?_
  rw [V_main_v5]
  exact congrFun (congrFun (coef_transpose (m ((c : Thread nD τ).loc main_arg6)) transposes_S256x16_S16x256_1_0) k) h

/-- The array window 6 stages, as the region finds it: the bias vector as one row. -/
theorem V_main_v12 (c : Dev nD) : (V m c main_v12 : S1x256.Idx → EReal)
    = shapeCast (α := EReal) S1x256 (m ((c : Thread nD τ).loc main_arg7)) shapeCasts_S256_S1x256 := by
  dsimp only [Gen.V, Gen.hostOps0]; after_results; rfl

/-- Window 6's block, as a vector: the bias array. -/
theorem vec_blk6 (c : Dev nD) (t : Fin cfg0.N) :
    rowVec (iblk m c 6 t) = vecOf (m ((c : Thread nD τ).loc main_arg7)) := by
  funext h
  obtain ⟨e0, e1, e2, e3, a1, b1, a2, b2, a3, b3, a4, b4, a5, b5, a6, b6, a7, b7, a8, b8, a9, b9, a10, b10⟩ := idx_facts t
  have hb : iblk m c 6 t (ix2 (0 : Fin 1) h) = (V m c main_v12 : S1x256.Idx → EReal) (ix2 (0 : Fin 1) h) := by
    show V m c main_v12 (((cfg0.win 6).blk t).view.emb (ix2 (0 : Fin 1) h)) = V m c main_v12 (ix2 (0 : Fin 1) h)
    refine congrArg _ (funext fun a => Fin.ext ?_)
    match a with
    | ⟨0, _⟩ => show win0_6.index t (0 : Fin 2) * 1 + 1 * 0 = 0; omega
    | ⟨1, _⟩ => show win0_6.index t (1 : Fin 2) * 256 + 1 * h.val = h.val; omega
  refine hb.trans ?_
  rw [V_main_v12]
  exact shapeCast_a_1a_apply (m ((c : Thread nD τ).loc main_arg7)) shapeCasts_S256_S1x256 0 h

/-- The array window 7 stages, as the region finds it: the transposed weight array, its float format changed. -/
theorem V_main_v7 (c : Dev nD) : (V m c main_v7 : S256x256.Idx → EReal)
    = truncf (F := Ideal) .bf16 (transpose S256x256 [1, 0] (m ((c : Thread nD τ).loc main_arg8)) transposes_S256x256_S256x256_1_0) bitsLt_bf16_f32 := by
  dsimp only [Gen.V, Gen.hostOps0]; after_results

/-- Window 7's block, as coefficients: entry (h, k) of the weight array. -/
theorem coef_blk7 (c : Dev nD) (t : Fin cfg0.N) :
    coef (iblk m c 7 t) = fun k h => (m ((c : Thread nD τ).loc main_arg8)) (ix2 h k) := by
  funext k h
  obtain ⟨e0, e1, e2, e3, a1, b1, a2, b2, a3, b3, a4, b4, a5, b5, a6, b6, a7, b7, a8, b8, a9, b9, a10, b10⟩ := idx_facts t
  have hb : iblk m c 7 t (ix2 k h) = (V m c main_v7 : S256x256.Idx → EReal) (ix2 k h) := by
    show V m c main_v7 (((cfg0.win 7).blk t).view.emb (ix2 k h)) = V m c main_v7 (ix2 k h)
    refine congrArg _ (funext fun a => Fin.ext ?_)
    match a with
    | ⟨0, _⟩ => show win0_7.index t (0 : Fin 2) * 256 + 1 * k.val = k.val; omega
    | ⟨1, _⟩ => show win0_7.index t (1 : Fin 2) * 256 + 1 * h.val = h.val; omega
  refine hb.trans ?_
  rw [V_main_v7]
  exact congrFun (congrFun (coef_transpose (m ((c : Thread nD τ).loc main_arg8)) transposes_S256x256_S256x256_1_0) k) h

/-- The array window 8 stages, as the region finds it: the bias vector as one row. -/
theorem V_main_v13 (c : Dev nD) : (V m c main_v13 : S1x256.Idx → EReal)
    = shapeCast (α := EReal) S1x256 (m ((c : Thread nD τ).loc main_arg9)) shapeCasts_S256_S1x256 := by
  dsimp only [Gen.V, Gen.hostOps0]; after_results; rfl

/-- Window 8's block, as a vector: the bias array. -/
theorem vec_blk8 (c : Dev nD) (t : Fin cfg0.N) :
    rowVec (iblk m c 8 t) = vecOf (m ((c : Thread nD τ).loc main_arg9)) := by
  funext h
  obtain ⟨e0, e1, e2, e3, a1, b1, a2, b2, a3, b3, a4, b4, a5, b5, a6, b6, a7, b7, a8, b8, a9, b9, a10, b10⟩ := idx_facts t
  have hb : iblk m c 8 t (ix2 (0 : Fin 1) h) = (V m c main_v13 : S1x256.Idx → EReal) (ix2 (0 : Fin 1) h) := by
    show V m c main_v13 (((cfg0.win 8).blk t).view.emb (ix2 (0 : Fin 1) h)) = V m c main_v13 (ix2 (0 : Fin 1) h)
    refine congrArg _ (funext fun a => Fin.ext ?_)
    match a with
    | ⟨0, _⟩ => show win0_8.index t (0 : Fin 2) * 1 + 1 * 0 = 0; omega
    | ⟨1, _⟩ => show win0_8.index t (1 : Fin 2) * 256 + 1 * h.val = h.val; omega
  refine hb.trans ?_
  rw [V_main_v13]
  exact shapeCast_a_1a_apply (m ((c : Thread nD τ).loc main_arg9)) shapeCasts_S256_S1x256 0 h

/-- The array window 9 stages, as the region finds it: the transposed weight array, its float format changed. -/
theorem V_main_v9 (c : Dev nD) : (V m c main_v9 : S256x16.Idx → EReal)
    = truncf (F := Ideal) .bf16 (transpose S256x16 [1, 0] (m ((c : Thread nD τ).loc main_arg10)) transposes_S16x256_S256x16_1_0) bitsLt_bf16_f32 := by
  dsimp only [Gen.V, Gen.hostOps0]; after_results

/-- Window 9's block, as coefficients: entry (h, k) of the weight array. -/
theorem coef_blk9 (c : Dev nD) (t : Fin cfg0.N) :
    coef (iblk m c 9 t) = fun k h => (m ((c : Thread nD τ).loc main_arg10)) (ix2 h k) := by
  funext k h
  obtain ⟨e0, e1, e2, e3, a1, b1, a2, b2, a3, b3, a4, b4, a5, b5, a6, b6, a7, b7, a8, b8, a9, b9, a10, b10⟩ := idx_facts t
  have hb : iblk m c 9 t (ix2 k h) = (V m c main_v9 : S256x16.Idx → EReal) (ix2 k h) := by
    show V m c main_v9 (((cfg0.win 9).blk t).view.emb (ix2 k h)) = V m c main_v9 (ix2 k h)
    refine congrArg _ (funext fun a => Fin.ext ?_)
    match a with
    | ⟨0, _⟩ => show win0_9.index t (0 : Fin 2) * 256 + 1 * k.val = k.val; omega
    | ⟨1, _⟩ => show win0_9.index t (1 : Fin 2) * 16 + 1 * h.val = h.val; omega
  refine hb.trans ?_
  rw [V_main_v9]
  exact congrFun (congrFun (coef_transpose (m ((c : Thread nD τ).loc main_arg10)) transposes_S16x256_S256x16_1_0) k) h

/-- The array window 10 stages, as the region finds it: the bias vector as one row. -/
theorem V_main_v14 (c : Dev nD) : (V m c main_v14 : S1x16.Idx → EReal)
    = shapeCast (α := EReal) S1x16 (m ((c : Thread nD τ).loc main_arg11)) shapeCasts_S16_S1x16 := by
  dsimp only [Gen.V, Gen.hostOps0]; after_results; rfl

/-- Window 10's block, as a vector: the bias array. -/
theorem vec_blk10 (c : Dev nD) (t : Fin cfg0.N) :
    rowVec (iblk m c 10 t) = vecOf (m ((c : Thread nD τ).loc main_arg11)) := by
  funext h
  obtain ⟨e0, e1, e2, e3, a1, b1, a2, b2, a3, b3, a4, b4, a5, b5, a6, b6, a7, b7, a8, b8, a9, b9, a10, b10⟩ := idx_facts t
  have hb : iblk m c 10 t (ix2 (0 : Fin 1) h) = (V m c main_v14 : S1x16.Idx → EReal) (ix2 (0 : Fin 1) h) := by
    show V m c main_v14 (((cfg0.win 10).blk t).view.emb (ix2 (0 : Fin 1) h)) = V m c main_v14 (ix2 (0 : Fin 1) h)
    refine congrArg _ (funext fun a => Fin.ext ?_)
    match a with
    | ⟨0, _⟩ => show win0_10.index t (0 : Fin 2) * 1 + 1 * 0 = 0; omega
    | ⟨1, _⟩ => show win0_10.index t (1 : Fin 2) * 16 + 1 * h.val = h.val; omega
  refine hb.trans ?_
  rw [V_main_v14]
  exact shapeCast_a_1a_apply (m ((c : Thread nD τ).loc main_arg11)) shapeCasts_S16_S1x16 0 h

/-- The parameters as the body sees them at any point are the parameters read off the argument arrays. -/
theorem params_eq (c : Dev nD) (t : Fin cfg0.N) :
    blockParams (iblk m c 1 t) (iblk m c 2 t) (iblk m c 3 t) (iblk m c 4 t) (iblk m c 5 t) (iblk m c 6 t) (iblk m c 7 t) (iblk m c 8 t) (iblk m c 9 t) (iblk m c 10 t) = arrayParams (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold blockParams arrayParams
  rw [coef_blk1 m c t, vec_blk2 m c t, coef_blk3 m c t, vec_blk4 m c t, coef_blk5 m c t, vec_blk6 m c t, coef_blk7 m c t, vec_blk8 m c t, coef_blk9 m c t, vec_blk10 m c t]

/-- The result array's contents as a function of the memory the program was launched with. -/
abbrev Gm (c : Dev nD) : S131072x16.Idx → EReal := G (m ((c : Thread nD τ).loc main_arg1)) (arrayParams (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))

/-- WHAT POINT t WRITES BACK is block t of G. -/
theorem flushed_eq (c : Dev nD) (t : Fin cfg0.N) :
    (dats m 0 c).flushed 11 t = ((cfg0.win 11).blk t).view.read (Elt Ideal) (Gm m c) := by
  rw [Cert.KernelIdeal.Value.flushed11]
  unfold out0_11
  rw [View.canon_unit_zero hz]
  simp only [View.ld_unit_zero (S := S2048x16) hz, View.ld_unit_zero (S := S16x256) hz, View.ld_unit_zero (S := S1x256) hz, View.ld_unit_zero (S := S256x256) hz, View.ld_unit_zero (S := S256x16) hz, View.ld_unit_zero (S := S1x16) hz]
  funext y
  obtain ⟨p, j, rfl⟩ : ∃ (p : Fin 2048) (j : Fin 16), y = ix2 p j := ⟨y 0, y 1, eq_ix2 y⟩
  obtain ⟨e0, e1, e2, e3, a1, b1, a2, b2, a3, b3, a4, b4, a5, b5, a6, b6, a7, b7, a8, b8, a9, b9, a10, b10⟩ := idx_facts t
  show rowAt (k0_pay1 (F := Ideal) (k0_pay2 (iblk m c 0 t)) (k0_pay3 (iblk m c 5 t)) (k0_pay4 (iblk m c 6 t)) (k0_pay5 (iblk m c 7 t)) (k0_pay6 (iblk m c 8 t)) (k0_pay7 (iblk m c 9 t)) (k0_pay8 (iblk m c 10 t)) (k0_pay10 (iblk m c 0 t) (iblk m c 1 t) (iblk m c 2 t)) (k0_pay11 (iblk m c 0 t) (iblk m c 1 t) (iblk m c 2 t) (iblk m c 3 t) (iblk m c 4 t))) p j
    = net (arrayParams (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (rowAt (m ((c : Thread nD τ).loc main_arg1)) (LibMatmul.rowOf (((cfg0.win 11).blk t).view.emb (ix2 p j)))) (LibMatmul.colOf (((cfg0.win 11).blk t).view.emb (ix2 p j)))
  refine (congrFun (body_row (iblk m c 0 t) (iblk m c 1 t) (iblk m c 2 t) (iblk m c 3 t) (iblk m c 4 t) (iblk m c 5 t) (iblk m c 6 t) (iblk m c 7 t) (iblk m c 8 t) (iblk m c 9 t) (iblk m c 10 t) p) j).trans ?_
  rw [params_eq m c t]
  have hx : rowAt (iblk m c 0 t) p = rowAt (m ((c : Thread nD τ).loc main_arg1)) (LibMatmul.rowOf (((cfg0.win 11).blk t).view.emb (ix2 p j))) := by
    funext k
    show V m c main_arg1 (((cfg0.win 0).blk t).view.emb (ix2 p k)) = (m ((c : Thread nD τ).loc main_arg1)) (ix2 (LibMatmul.rowOf (((cfg0.win 11).blk t).view.emb (ix2 p j))) k)
    rw [V_main_arg1]
    refine congrArg _ (funext fun a => Fin.ext ?_)
    match a with
    | ⟨0, _⟩ => show win0_0.index t (0 : Fin 2) * 2048 + 1 * p.val = win0_11.index t (0 : Fin 2) * 2048 + 1 * p.val; omega
    | ⟨1, _⟩ => show win0_0.index t (1 : Fin 2) * 16 + 1 * k.val = k.val; omega
  have hj : LibMatmul.colOf (((cfg0.win 11).blk t).view.emb (ix2 p j)) = j :=
    Fin.ext (by show win0_11.index t (1 : Fin 2) * 16 + 1 * j.val = j.val; omega)
  rw [hx, hj]

/-- An index of the result array is in point t's block iff each coordinate is in the block's range on its axis. -/
theorem mem_blk (t : Fin cfg0.N) (i : S131072x16.Idx) :
    i ∈ ((cfg0.win 11).blk t).view.set ↔ ∀ a : Fin 2, win0_11.index t a * S2048x16.size a ≤ (i a).val ∧ (i a).val < win0_11.index t a * S2048x16.size a + S2048x16.size a := by
  show i ∈ ((View.whole main_v15).slice (win0_11.rect t)).set ↔ _
  rw [View.set_slice_whole, Rect.mem_set_unit]
  exact Iff.rfl

/-- Every index of the result array is in some point's block: row r is in the block of point r / 2048. -/
theorem covered (i : S131072x16.Idx) :
    ∃ t : Fin cfg0.N, (cfg0.win 11).flush t = true ∧ i ∈ ((cfg0.win 11).blk t).view.set := by
  have hi0 : (i 0).val < 131072 := (i 0).isLt
  have hi1 : (i 1).val < 16 := (i 1).isLt
  have ht : (i 0).val / 2048 < 64 := by omega
  refine ⟨⟨(i 0).val / 2048, ht⟩, flush0_11 _, ?_⟩
  obtain ⟨e0, e1, e2, e3, a1, b1, a2, b2, a3, b3, a4, b4, a5, b5, a6, b6, a7, b7, a8, b8, a9, b9, a10, b10⟩ := idx_facts ⟨(i 0).val / 2048, ht⟩
  rw [mem_blk]
  intro a
  match a with
  | ⟨0, _⟩ =>
    show win0_11.index ⟨(i 0).val / 2048, ht⟩ (0 : Fin 2) * 2048 ≤ (i 0).val ∧ (i 0).val < win0_11.index ⟨(i 0).val / 2048, ht⟩ (0 : Fin 2) * 2048 + 2048
    have e3' : win0_11.index ⟨(i 0).val / 2048, ht⟩ (0 : Fin 2) = (i 0).val / 2048 := e3
    omega
  | ⟨1, _⟩ =>
    show win0_11.index ⟨(i 0).val / 2048, ht⟩ (1 : Fin 2) * 16 ≤ (i 1).val ∧ (i 1).val < win0_11.index ⟨(i 0).val / 2048, ht⟩ (1 : Fin 2) * 16 + 16
    omega

/-- THE RESULT ARRAY after the run is G of the argument arrays. -/
theorem final (c : Dev nD) : (dats m 0 c).arrAt 11 cfg0.N = Gm m c :=
  (dats m 0 c).arrAt_eq_of_cover 11 (Gm m c) (fun t _ => flushed_eq m c t) covered

/-- The kernel's run: the result array ends at G of the argument arrays, the arguments unchanged. -/
theorem run : θ_run defs (onTc (τ := τ) (main (F := Ideal))) ⟨m, fun _ => 0, ρ⟩ fun r => ∀ c : Dev nD,
      r.2.mem ((c : Thread nD τ).loc main_v15) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩)
    (Cert.KernelIdeal.Value.run_blocks m ρ)

end Cert.Hand.KernelArray

end
-- ==== Proof.RefRow.lean ====
/-
  The reference, read a row at a time.

  Every stage of the reference acts row by row: the products contract along a row of the left operand, the biases
  are spread down the rows, everything else is entry by entry, and the last stages swap the halves of each row.
  So row r of the reference's result is the network of one row applied to row r of the state, with the transposed
  weight arrays read as coefficients.
-/
import proofs.«119974_j9156870275617_1_alg».proof.Proof.Gen.ReferenceIdeal.Read
import proofs.«119974_j9156870275617_1_alg».proof.Proof.SwapRow
import proofs.«119974_j9156870275617_1_alg».proof.Proof.NetSpec

noncomputable section

namespace Cert.Hand.RefRow

open Idealize.ShloMosaic Idealize.ShloMosaic.ValueIdx Cert.Hand.RowNet Cert.Hand.Rows Cert.Hand.NetSpec LibDenseRow
open Cert.ReferenceIdeal Cert.ReferenceIdeal.Read Cert.ReferenceIdeal.Gen

theorem host_act_row {M N : ℕ} (A : FVec Ideal ⟨2, ![M, N]⟩ .f32) (p : Fin M) :
    rowAt (Host.tanh A) p = act (rowAt A p) := rfl

variable (x1 : FVec Ideal S131072x16 .f32) (x2 : FVec Ideal S256x16 .f32) (x3 : FVec Ideal S256 .f32)
  (x4 : FVec Ideal S256x256 .f32) (x5 : FVec Ideal S256 .f32) (x6 : FVec Ideal S256x16 .f32) (x7 : FVec Ideal S256 .f32)
  (x8 : FVec Ideal S256x256 .f32) (x9 : FVec Ideal S256 .f32) (x10 : FVec Ideal S16x256 .f32) (x11 : FVec Ideal S16 .f32)

/-- First hidden value of the first network, at row r. -/
theorem t1_row (r : Fin 131072) :
    rowAt (val_main_v5 (F := Ideal) x1 x2 x3) r = act (dense (fun k h => x2 (ix2 h k)) (vecOf x3) (rowAt x1 r)) := by
  unfold val_main_v5 val_main_v4 val_main_v1 val_main_v3 val_main_v2 val_main_v0
  refine (host_act_row _ r).trans (congrArg act ?_)
  refine (host_dense_row (M := 131072) (K := 16) (N := 256) x1 _ x3 bcast_S256_S1x256_1 bcast_S1x256_S131072x256_0_1 r).trans ?_
  rw [coef_transpose]

/-- Its derivative factor, at row r. -/
theorem s1_row (r : Fin 131072) :
    rowAt (val_main_v8 (F := Ideal) x1 x2 x3) r = slope (rowAt (val_main_v5 (F := Ideal) x1 x2 x3) r) := rfl

/-- Second hidden value of the first network, at row r. -/
theorem t2_row (r : Fin 131072) :
    rowAt (val_main_v14 (F := Ideal) x1 x2 x3 x4 x5) r
      = act (dense (fun k h => x4 (ix2 h k)) (vecOf x5) (rowAt (val_main_v5 (F := Ideal) x1 x2 x3) r)) := by
  unfold val_main_v14 val_main_v13 val_main_v10 val_main_v12 val_main_v11 val_main_v9
  refine (host_act_row _ r).trans (congrArg act ?_)
  refine (host_dense_row (M := 131072) (K := 256) (N := 256) (val_main_v5 (F := Ideal) x1 x2 x3) _ x5
    bcast_S256_S1x256_1 bcast_S1x256_S131072x256_0_1 r).trans ?_
  rw [coef_transpose]

/-- Its derivative factor, at row r. -/
theorem s2_row (r : Fin 131072) :
    rowAt (val_main_v17 (F := Ideal) x1 x2 x3 x4 x5) r = slope (rowAt (val_main_v14 (F := Ideal) x1 x2 x3 x4 x5) r) := rfl

/-- First layer of the second network, at row r. -/
theorem f1_row (r : Fin 131072) :
    rowAt (val_main_v22 (F := Ideal) x1 x6 x7) r = dense (fun k h => x6 (ix2 h k)) (vecOf x7) (rowAt x1 r) := by
  unfold val_main_v22 val_main_v19 val_main_v21 val_main_v20 val_main_v18
  refine (host_dense_row (M := 131072) (K := 16) (N := 256) x1 _ x7 bcast_S256_S1x256_1 bcast_S1x256_S131072x256_0_1 r).trans ?_
  rw [coef_transpose]

/-- First gated value, at row r. -/
theorem g1_row (r : Fin 131072) :
    rowAt (val_main_v29 (F := Ideal) x1 x2 x3 x4 x5 x6 x7) r
      = mix (rowAt (val_main_v22 (F := Ideal) x1 x6 x7) r) (rowAt (val_main_v17 (F := Ideal) x1 x2 x3 x4 x5) r) := rfl

/-- Second layer of the second network, at row r. -/
theorem f2_row (r : Fin 131072) :
    rowAt (val_main_v34 (F := Ideal) x1 x2 x3 x4 x5 x6 x7 x8 x9) r
      = dense (fun k h => x8 (ix2 h k)) (vecOf x9) (rowAt (val_main_v29 (F := Ideal) x1 x2 x3 x4 x5 x6 x7) r) := by
  unfold val_main_v34 val_main_v31 val_main_v33 val_main_v32 val_main_v30
  refine (host_dense_row (M := 131072) (K := 256) (N := 256) (val_main_v29 (F := Ideal) x1 x2 x3 x4 x5 x6 x7) _ x9
    bcast_S256_S1x256_1 bcast_S1x256_S131072x256_0_1 r).trans ?_
  rw [coef_transpose]

/-- Second gated value, at row r. -/
theorem g2_row (r : Fin 131072) :
    rowAt (val_main_v41 (F := Ideal) x1 x2 x3 x4 x5 x6 x7 x8 x9) r
      = mix (rowAt (val_main_v34 (F := Ideal) x1 x2 x3 x4 x5 x6 x7 x8 x9) r) (rowAt (val_main_v8 (F := Ideal) x1 x2 x3) r) := rfl

/-- Output layer, at row r. -/
theorem f3_row (r : Fin 131072) :
    rowAt (val_main_v46 (F := Ideal) x1 x2 x3 x4 x5 x6 x7 x8 x9 x10 x11) r
      = dense (fun k h => x10 (ix2 h k)) (vecOf x11) (rowAt (val_main_v41 (F := Ideal) x1 x2 x3 x4 x5 x6 x7 x8 x9) r) := by
  unfold val_main_v46 val_main_v43 val_main_v45 val_main_v44 val_main_v42
  refine (host_dense_row (M := 131072) (K := 256) (N := 16) (val_main_v41 (F := Ideal) x1 x2 x3 x4 x5 x6 x7 x8 x9) _ x11
    bcast_S16_S1x16_1 bcast_S1x16_S131072x16_0_1 r).trans ?_
  rw [coef_transpose]

/-- The swap, at row r. -/
theorem out_row (r : Fin 131072) :
    rowAt (val_main_v50 (F := Ideal) x1 x2 x3 x4 x5 x6 x7 x8 x9 x10 x11) r
      = swapNeg (rowAt (val_main_v46 (F := Ideal) x1 x2 x3 x4 x5 x6 x7 x8 x9 x10 x11) r) := by
  unfold val_main_v50 val_main_v47 val_main_v49 val_main_v48
  exact host_swap_row (M := 131072) (val_main_v46 (F := Ideal) x1 x2 x3 x4 x5 x6 x7 x8 x9 x10 x11)
    slices_S131072x16_S131072x8_0_8 slices_S131072x16_S131072x8_0_0 concatenates_S131072x8_S131072x8_S131072x16_d1 r

/-- THE REFERENCE'S RESULT is the network applied to every row of the state. -/
theorem result_eq :
    val_main_v50 (F := Ideal) x1 x2 x3 x4 x5 x6 x7 x8 x9 x10 x11 = G x1 (arrayParams x2 x3 x4 x5 x6 x7 x8 x9 x10 x11) :=
  eq_of_rows _ _ fun r => by
    rw [G_row, out_row, f3_row, g2_row, f2_row, g1_row, f1_row, s2_row, t2_row, s1_row, t1_row]
    rfl

end Cert.Hand.RefRow

end
-- ==== Proof.lean ====
/-
  A two-network layer on 131072 states of 16 numbers, computed block by block, equals the same layer computed on
  the whole array, over the extended reals.

  Each state row x goes through two tanh layers of a first network, t1 = tanh(x·W1ᵀ + b1) and t2 = tanh(t1·W2ᵀ + b2),
  whose derivative factors 1 - t² gate a second network on the same row: g1 = ½·f1·(1 - t2²) + ½·tanh f1 with
  f1 = x·V1ᵀ + c1, g2 = ½·f2·(1 - t1²) + ½·tanh f2 with f2 = g1·V2ᵀ + c2, f3 = g2·V3ᵀ + c3; the result row is
  (f3[8..16), -f3[0..8)).  Every step acts on one row at a time, so the result array is ONE function G of the
  argument arrays: row r of G is that network applied to row r of the state (NetSpec, RowNet).

  The blocked program transposes the weight arrays and recasts the biases as single rows on the host, then works
  on 64 blocks of 2048 rows; each block's result is G's block (KernelRow, KernelArray), and the blocks tile the
  array.  The whole-array program applies the same steps to all rows at once, and its result is G too (RefRow).
  The two sides meet without any appeal to finiteness: a matrix product is the same sum on both sides, a change
  of float format is the identity on the extended reals, and zero minus a value is its negation.
-/
import proofs.«119974_j9156870275617_1_alg».proof.Defs
import proofs.«119974_j9156870275617_1_alg».proof.Proof.Gen.Kernel
import proofs.«119974_j9156870275617_1_alg».proof.Proof.Gen.Kernel.Frame
import proofs.«119974_j9156870275617_1_alg».proof.Proof.Gen.KernelIdeal
import proofs.«119974_j9156870275617_1_alg».proof.Proof.Gen.KernelIdeal.Frame
import proofs.«119974_j9156870275617_1_alg».proof.Proof.Gen.KernelIdeal.Value
import proofs.«119974_j9156870275617_1_alg».proof.Proof.Gen.ReferenceIdeal
import proofs.«119974_j9156870275617_1_alg».proof.Proof.Gen.ReferenceIdeal.Run
import proofs.«119974_j9156870275617_1_alg».proof.Proof.Gen.ReferenceIdeal.Read
import proofs.«119974_j9156870275617_1_alg».proof.Proof.Gen.Pre_finite_inputs
import proofs.«119974_j9156870275617_1_alg».proof.Proof.KernelArray
import proofs.«119974_j9156870275617_1_alg».proof.Proof.RefRow
import Idealize.ShloMosaic.Adequacy
import Idealize.ShloMosaic.Init

noncomputable section

namespace Cert.Proof

open Idealize.ShloMosaic Idealize.SL.Sem

/-- The blocked program at the word level runs and leaves its arguments as they were. -/
theorem frame_kernel : Cert.frame_Kernel := fun m ρ _ => Cert.Kernel.Gen.frame m ρ

/-- The blocked program over the extended reals runs and leaves its arguments as they were. -/
theorem frame_kernelIdeal : Cert.frame_KernelIdeal := fun m ρ _ => Cert.KernelIdeal.Gen.frame m ρ

/-- The whole-array program runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the arguments, both programs end with the result array at G of the arguments. -/
theorem algebraic : Cert.algebraic_KernelIdeal_ReferenceIdeal := by
  intro m ρ m' ρ' _ hagree
  refine ⟨fun c => Cert.Hand.KernelArray.Gm m c, Cert.Hand.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v50_eq, Cert.Hand.RefRow.result_eq, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
